-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4x4096x2048 : Shape := ⟨3, ![4, 4096, 2048]⟩
abbrev S1x1 : Shape := ⟨2, ![1, 1]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S1x1 : S_.BroadcastsInDim S1x1 (![] : Fin 0 → Fin S1x1.rank)
  reducesTo_S1x1_S_d0_1 : S1x1.ReducesTo [0, 1] S_

variable [Facts]

def fn {F : FTy → Type} [FloatOps F] (main_arg0 : FVec F S4x4096x2048 .f32) (main_arg1 : IVec S1x1 32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_c_0 : IVec S_ 32 := constantI S_ 32 0#32
  let main_v4 : IVec S1x1 32 := broadcastInDim S1x1 ![] bcast_S_S1x1 main_c_0
  let main_v5 : IVec S1x1 1 := cmpi .sge main_arg1 main_v4
  let main_c_1 : IVec S_ 32 := constantI S_ 32 4095#32
  let main_v6 : IVec S1x1 32 := broadcastInDim S1x1 ![] bcast_S_S1x1 main_c_1
  let main_v7 : IVec S1x1 1 := cmpi .sle main_arg1 main_v6
  let main_v8 : IVec S1x1 1 := andi main_v5 main_v7
  let main_c_2 : IVec S_ 1 := constantI S_ 1 1#1
  let main_v9 : IVec S_ 1 := (fun x v => Host.reduce IntOp.andi x v reducesTo_S1x1_S_d0_1 h_S_) main_v8 main_c_2
  let main_v10 : IVec S_ 1 := andi main_v3 main_v9
  main_v10
-- ==== Kernel.lean ====
abbrev S4x4096x2048 : Shape := ⟨3, ![4, 4096, 2048]⟩
abbrev S1x1 : Shape := ⟨2, ![1, 1]⟩
abbrev S1 : Shape := ⟨1, ![1]⟩
abbrev S4x1x2048 : Shape := ⟨3, ![4, 1, 2048]⟩
abbrev S16 : Shape := ⟨1, ![16]⟩
abbrev S1x2048 : Shape := ⟨2, ![1, 2048]⟩
abbrev S_ : Shape := ⟨0, ![]⟩
abbrev S1x1x2048 : Shape := ⟨3, ![1, 1, 2048]⟩

abbrev nBuf : Table → Nat
  | .hbm => 4
  | .local .scVector .vmem => 2
  | _ => 0

abbrev bufTy : (tb : Table) → Fin (nBuf tb) → BufTy
  | .hbm, ⟨0, _⟩ => ⟨S4x4096x2048, .f32⟩
  | .hbm, ⟨1, _⟩ => ⟨S1x1, .i32⟩
  | .hbm, ⟨2, _⟩ => ⟨S1, .i32⟩
  | .hbm, ⟨3, _⟩ => ⟨S4x1x2048, .f32⟩
  | .local .scVector .vmem, ⟨0, _⟩ => ⟨S16, .i32⟩
  | .local .scVector .vmem, ⟨1, _⟩ => ⟨S1x2048, .f32⟩
  | _, _ => ⟨S4x4096x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg0_scv : Ref sig .scVector := ⟨.hbm, 0, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let arg0 : BitVec 32 := BitVec.ofNat 32 (i 0).val
  let v0 : BitVec 32 := Scalar.addi arg1 arg0
  let c4_i32 : BitVec 32 := 4#32
  let v1 : BitVec 1 := Scalar.cmpi .slt v0 c4_i32
  let v2 : BitVec 32 := Scalar.extui v1
  let c0_i32 : BitVec 32 := 0#32
  let v3 : BitVec 1 := Scalar.cmpi .ne v2 c0_i32
  v3

def k0_off1 (i : grid0.Coords) (v7 : BitVec 32) : Fin 3 → Nat :=
  let arg1 : BitVec 32 := BitVec.ofNat 32 (i 1).val
  let arg0 : BitVec 32 := BitVec.ofNat 32 (i 0).val
  let v0 : BitVec 32 := Scalar.addi arg1 arg0
  let c0_i32_0_r1 : BitVec 32 := 0#32
  ![v0.toNat, v7.toNat, 0]

def k0_chk1 (i : grid0.Coords) (v7 : BitVec 32) : Prop :=
  (∀ (k0_h1 : k0_cond1 i = 1#1), ∀ a, (k0_off1 i v7) a + S1x1x2048.size a ≤ S4x4096x2048.size a)
instance k0_chk1.dec : ∀ (i : grid0.Coords) (v7 : BitVec 32), Decidable (k0_chk1 i v7) := fun i v7 => decidable_of_iff' _ (Iff.of_eq (k0_chk1.eq_1 i v7))
theorem k0_off1_inb : ∀ (i : grid0.Coords) (v7 : BitVec 32) (k0_hw1 : k0_chk1 i v7), ∀ (k0_h1 : k0_cond1 i = 1#1), ∀ a, (k0_off1 i v7) a + S1x1x2048.size a ≤ S4x4096x2048.size a := fun i v7 k0_hw1 k0_h1 => k0_hw1 k0_h1

def k0_off2 (i : grid0.Coords) : Fin 3 → Nat :=
  let arg1 : BitVec 32 := BitVec.ofNat 32 (i 1).val
  let arg0 : BitVec 32 := BitVec.ofNat 32 (i 0).val
  let v0 : BitVec 32 := Scalar.addi arg1 arg0
  let c0_i32_0_r2 : BitVec 32 := 0#32
  let c0_i32_1_r2 : BitVec 32 := 0#32
  ![v0.toNat, 0, 0]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 4 | ⟨_ + 1, h⟩ => absurd h (Nat.not_lt.2 (Nat.le_add_left _ _))

class Facts₀ : Prop where
  shapeCasts_S1x1_S1 : S1x1.ShapeCasts S1
  inb_S16_S1_0 : ∀ a, (![0] : Fin 1 → Nat) a + S1.size a ≤ S16.size a
  inb_S16_S16_0 : ∀ a, (![0] : Fin 1 → Nat) a + S16.size a ≤ S16.size a
  h_S16 : 0 < S16.numel
  shapeCasts_S16_S16 : S16.ShapeCasts S16
  slices_S16_o0_S1 : S16.Slices ![0] S1
  inpos_S1_p0 : ∀ a, (![0] : Fin 1 → Nat) a < S1.size a
  squeezes_S1x1x2048_S1x2048 : S1x1x2048.Squeezes S1x2048
  hcc0_scoped0 : 0 + S_.numel ≤ 3
  hcc0_scoped1 : 1 + S_.numel ≤ 3
  hcc0_scoped2 : 2 + S_.numel ≤ 3
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off2_inb : ∀ i : grid0.Coords, ∀ (k0_h1 : k0_cond1 i = 1#1), ∀ a, (k0_off2 i) a + S1x1x2048.size a ≤ S4x1x2048.size a

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2

class Facts : Prop extends Facts₀ where

variable [Facts]
-- ==== ReferenceIdeal.lean ====
abbrev S4x4096x2048 : Shape := ⟨3, ![4, 4096, 2048]⟩
abbrev S1x1 : Shape := ⟨2, ![1, 1]⟩
abbrev S1 : Shape := ⟨1, ![1]⟩
abbrev S_ : Shape := ⟨0, ![]⟩
abbrev S4x1x2048 : Shape := ⟨3, ![4, 1, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x1, .i32⟩
  | .hbm, ⟨2, _⟩ => ⟨S1, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S4x1x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_c_2 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  shapeCasts_S1x1_S1 : S1x1.ShapeCasts S1
  shapeCasts_S1_S_ : S1.ShapeCasts S_
  sliceFits_S4x4096x2048_S4x1x2048 : S4x4096x2048.Slices (fun _ => 0) S4x1x2048
  h_S_ : 0 < S_.numel

variable [Facts₀]

class Facts : Prop extends Facts₀ where

variable [Facts]
-- ==== Proof.Spec.lean ====
/-
  The function both programs compute. The inputs are an array `x0` of shape [4, 4096, 2048] and a one-entry index
  array `x1` of shape [1, 1]. The result, of shape [4, 1, 2048], holds for every batch `b` and lane `k` the entry
  `x0 (b, r, k)`, where `r` is the entry of `x1`: row `r` of every batch, kept as a block of one row. No arithmetic
  is done on the entries of `x0`: the statement is an equation between indices, and holds at every element type.
-/
import Idealize.ShloMosaic.Lib.DynamicIndex
import Idealize.ShloMosaic.Lib.ValueIdx
import Idealize.ShloMosaic.Lib.Pipeline.Value

noncomputable section

namespace Cert.Spec

open Idealize.ShloMosaic Idealize.ShloMosaic.ValueIdx

abbrev SX : Shape := ⟨3, ![4, 4096, 2048]⟩
abbrev SO : Shape := ⟨3, ![4, 1, 2048]⟩
abbrev SI : Shape := ⟨2, ![1, 1]⟩

/-- A block of one row fits in the array when it starts at the origin. -/
theorem fits : SX.Slices (fun _ => 0) SO := by decide

/-- The row the one-entry index array names, its word read unsigned. -/
def rowOf (x1 : SI.Idx → BitVec 32) : Nat := (x1 (ix2 (0 : Fin 1) (0 : Fin 1))).toNat

/-- Row `rowOf x1` of every batch of `x0`, as the block of shape [4, 1, 2048] that starts at (0, rowOf x1, 0); the
    start is clamped into the array, as a dynamic slice clamps it, so the function is total. -/
def gathered {α : Type} (x0 : SX.Idx → α) (x1 : SI.Idx → BitVec 32) : SO.Idx → α :=
  Host.dynamicSlice SO x0 (fun k => (((![0, rowOf x1, 0] : Fin 3 → Nat) k : Nat) : Int)) fits

/-- A row number below 4096 leaves the one-row block inside the array. -/
theorem rowFits {r : Nat} (h : r ≤ 4095) : SX.Slices ![0, r, 0] SO :=
  ⟨rfl, fun a => by
    match a with
    | ⟨0, _⟩ => show 0 + 4 ≤ 4; omega
    | ⟨1, _⟩ => show r + 1 ≤ 4096; omega
    | ⟨2, _⟩ => show 0 + 2048 ≤ 2048; omega⟩

/-- At a row number in range nothing is clamped: entry (b, 0, k) of the block is entry (b, r, k) of the array. -/
theorem gathered_apply {α : Type} (x0 : SX.Idx → α) (x1 : SI.Idx → BitVec 32) (h : rowOf x1 ≤ 4095) (b : Fin 4) (k : Fin 2048) :
    gathered x0 x1 (ix3 b (0 : Fin 1) k) = x0 (ix3 b (⟨rowOf x1, by omega⟩ : Fin 4096) k) := by
  unfold gathered
  rw [Host.dynamicSlice_eq_extractStridedSlice SO x0 _ ![0, rowOf x1, 0] fits (rowFits h) (fun a => rfl)]
  refine extractStridedSlice_apply _ _ _ _ _ (fun a => ?_)
  match a with
  | ⟨0, _⟩ => show b.val = 0 + b.val; omega
  | ⟨1, _⟩ => show rowOf x1 = rowOf x1 + 0; omega
  | ⟨2, _⟩ => show k.val = 0 + k.val; omega

end Cert.Spec

end
-- ==== Proof.PreRead.lean ====
/-
  The precondition, read back. It is stated as a computed bit: every entry of `x0` is finite, and the one entry of the
  index array, read signed, lies in [0, 4095], all of it folded by `and` into one bit that the claim says is 1. What
  the proofs use of it is the index entry's range; finiteness of `x0` is never needed, since no arithmetic is done on
  its entries.
-/
import proofs.«207829_g962072674457_cont_9to1_m_708_14_alg».proof.Pre_input_domain
import proofs.«207829_g962072674457_cont_9to1_m_708_14_alg».proof.Proof.Gen.Pre_input_domain
import proofs.«207829_g962072674457_cont_9to1_m_708_14_alg».proof.Proof.Spec
import Idealize.ShloMosaic.Lib.ReduceAll
import Idealize.ShloMosaic.Lib.ValueIdx

noncomputable section

namespace Cert.PreRead

open Idealize.ShloMosaic Idealize.ShloMosaic.ValueIdx Cert.Pre_input_domain

instance : Subsingleton S_.Idx := ⟨fun a b => funext fun d => d.elim0⟩

/-- A word that is nonnegative and at most 4095, read signed, is its own unsigned value. -/
theorem word_range (v : BitVec 32) (h : IntOp.andi (IntOp.cmpi .sge v 0#32) (IntOp.cmpi .sle v 4095#32) = 1#1) :
    0 ≤ v.toInt ∧ v.toInt ≤ 4095 ∧ v.toInt = (v.toNat : Int) := by
  obtain ⟨h1, h2⟩ := IntOp.andi_eq_one.mp h
  have g1 := IntOp.cmpi_sge.mp h1
  have g2 := IntOp.cmpi_sle.mp h2
  have z : (0#32 : BitVec 32).toInt = 0 := by decide
  have t : (4095#32 : BitVec 32).toInt = 4095 := by decide
  rw [z] at g1; rw [t] at g2
  have hc := BitVec.toInt_eq_toNat_cond v
  have hlt := v.isLt
  refine ⟨g1, g2, ?_⟩
  split at hc <;> omega

/-- Under the precondition the index array's entry, read signed, is in [0, 4095] and is its unsigned value. -/
theorem entry_of_pre {F : FTy → Type} [FloatOps F] [Cert.Pre_input_domain.Facts] (x0 : FVec F S4x4096x2048 .f32) (x1 : IVec S1x1 32)
    (h : Cert.Pre_input_domain.fn (F := F) x0 x1 = fun _ => 1#1) :
    0 ≤ (x1 (ix2 (0 : Fin 1) (0 : Fin 1))).toInt ∧ (x1 (ix2 (0 : Fin 1) (0 : Fin 1))).toInt ≤ 4095
      ∧ (x1 (ix2 (0 : Fin 1) (0 : Fin 1))).toInt = (Cert.Spec.rowOf x1 : Int) := by
  have e := congrFun h ix0
  dsimp only [Cert.Pre_input_domain.fn] at e
  have e9 := (IntOp.andi_eq_one.mp e).2
  have e8 := Host.reduce_andi_all _ _ _ _ ix0 e9 (ix2 (0 : Fin 1) (0 : Fin 1))
  exact word_range _ e8

/-- Under the precondition the index array's entry names a row of `x0`. -/
theorem row_of_pre {F : FTy → Type} [FloatOps F] [Cert.Pre_input_domain.Facts] (x0 : FVec F S4x4096x2048 .f32) (x1 : IVec S1x1 32)
    (h : Cert.Pre_input_domain.fn (F := F) x0 x1 = fun _ => 1#1) : Cert.Spec.rowOf x1 ≤ 4095 := by
  obtain ⟨_, h2, h3⟩ := entry_of_pre x0 x1 h
  rw [h3] at h2; omega

end Cert.PreRead

end
-- ==== Proof.RefValue.lean ====
/-
  The reference's result is `Spec.gathered` of its arguments. The reference takes the index array's entry, adds 4096 to
  it if it is negative, and takes the block of one row of `x0` that starts at that row, the start clamped into the
  array. Under the precondition the entry is not negative, so nothing is added, and its signed and unsigned readings
  agree: the three start indices are (0, entry, 0), which is how `Spec.gathered` is defined.
-/
import proofs.«207829_g962072674457_cont_9to1_m_708_14_alg».proof.Defs
import proofs.«207829_g962072674457_cont_9to1_m_708_14_alg».proof.Proof.Gen.ReferenceIdeal.Read
import proofs.«207829_g962072674457_cont_9to1_m_708_14_alg».proof.Proof.Spec
import Idealize.ShloMosaic.Lib.ValueIdx
import Idealize.ShloMosaic.Lib.Pipeline.Value
import Idealize.ShloMosaic.Lib.DynamicIndex

noncomputable section

namespace Cert.RefValue

open Cert.ReferenceIdeal Cert.ReferenceIdeal.Gen Cert.ReferenceIdeal.Read Idealize.ShloMosaic Idealize.ShloMosaic.ValueIdx

variable {F : FTy → Type} [FloatOps F]

/-- The index array reshaped to rank one and then to rank zero still holds its one entry. -/
theorem scalar_entry (x1 : (⟨S1x1, .i32⟩ : BufTy).Contents (Elt F)) (j : S_.Idx) :
    val_main_v1 (F := F) x1 j = x1 (ix2 (0 : Fin 1) (0 : Fin 1)) := by
  unfold val_main_v1
  have hj : (S_.rowMajor j).val = 0 := by have := (S_.rowMajor j).isLt; change _ < 1 at this; omega
  rw [shapeCast_apply (val_main_v0 (F := F) x1) shapeCasts_S1_S_ j (ix1 (0 : Fin 1)) (by rw [Shape.rowMajor_val_one, hj]; rfl)]
  rw [val_main_v0_apply]
  exact congrArg x1 (funext fun a => by match a with | ⟨0, _⟩ => rfl | ⟨1, _⟩ => rfl)

/-- With the index entry not negative and equal, read signed, to its unsigned value, the reference's result is
    `Spec.gathered`. -/
theorem ref_eq (x0 : (⟨S4x4096x2048, .f32⟩ : BufTy).Contents (Elt F)) (x1 : (⟨S1x1, .i32⟩ : BufTy).Contents (Elt F))
    (h0 : 0 ≤ (x1 (ix2 (0 : Fin 1) (0 : Fin 1))).toInt)
    (h1 : (x1 (ix2 (0 : Fin 1) (0 : Fin 1))).toInt = (Cert.Spec.rowOf x1 : Int)) :
    val_main_v5 (F := F) x0 x1 = Cert.Spec.gathered x0 x1 := by
  unfold val_main_v5 Cert.Spec.gathered
  congr 1
  funext k
  match k with
  | ⟨0, _⟩ => show (val_main_c_1 (F := F) (Shape.Idx.first h_S_)).toInt = ((0 : Nat) : Int); rw [val_main_c_1_apply]; decide
  | ⟨1, _⟩ =>
    show (val_main_v4 (F := F) x1 (Shape.Idx.first h_S_)).toInt = ((Cert.Spec.rowOf x1 : Nat) : Int)
    have hv4 : val_main_v4 (F := F) x1 (Shape.Idx.first h_S_) = val_main_v1 (F := F) x1 (Shape.Idx.first h_S_) :=
      select_slt_zero_of_nonneg (val_main_v1 (F := F) x1) _ _ _ (by rw [scalar_entry]; exact h0)
    rw [hv4, scalar_entry, h1]
  | ⟨2, _⟩ => show (val_main_c_2 (F := F) (Shape.Idx.first h_S_)).toInt = ((0 : Nat) : Int); rw [val_main_c_2_apply]; decide

end Cert.RefValue

end
-- ==== Proof.FrameIdeal.lean ====
/-
  The idealized kernel's run. Four vector subcores of one SparseCore each take one batch `b`: the subcore copies the
  one-entry index array into its index scratch, reads the entry `r`, copies row `r` of batch `b` of `x0` into its row
  scratch, and copies the row scratch out to row `b` of the result. Every subcore reads the same index array and the
  same array `x0`, so each holds a quarter share of both; the result's rows are disjoint, one per subcore. What is
  proved: every weakly fair execution of all the device's threads terminates, nothing faulting, the two inputs
  unchanged and the result equal to `Spec.gathered` of the inputs, provided the index entry is at most 4095.
-/
import proofs.«207829_g962072674457_cont_9to1_m_708_14_alg».proof.Defs
import proofs.«207829_g962072674457_cont_9to1_m_708_14_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueLayout
import proofs.«207829_g962072674457_cont_9to1_m_708_14_alg».proof.Proof.Gen.KernelIdeal
import proofs.«207829_g962072674457_cont_9to1_m_708_14_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 4 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the buffers -/

variable (m : (ℓ : Loc nD τ sig) → Buf (Elt F) ℓ) (ρ : Dev nD → PrngReg)

/-- The array `x0`, the index array, its rank-one copy, and the result, as locations of device `d`. -/
abbrev xLoc (d : Dev nD) : Loc nD τ sig := (SparseCore.T d).loc main_arg0
abbrev aLoc (d : Dev nD) : Loc nD τ sig := (SparseCore.T d).loc main_arg1
abbrev vLoc (d : Dev nD) : Loc nD τ sig := (SparseCore.T d).loc main_v0
abbrev oLoc (d : Dev nD) : Loc nD τ sig := (SparseCore.T d).loc main_v1

local notation "xV" => (Memref.whole Cert.KernelIdeal.main_arg0_scv : Memref Cert.KernelIdeal.sig Kind.scVector Space.hbm Cert.KernelIdeal.S4x4096x2048 EltTy.f32)
local notation "vV" => (Memref.whole Cert.KernelIdeal.main_v0_scv : Memref Cert.KernelIdeal.sig Kind.scVector Space.hbm Cert.KernelIdeal.S1 EltTy.i32)
local notation "oV" => (Memref.whole Cert.KernelIdeal.main_v1_scv : Memref Cert.KernelIdeal.sig Kind.scVector Space.hbm Cert.KernelIdeal.S4x1x2048 EltTy.f32)
local notation "sV" => (Memref.whole Cert.KernelIdeal.cc0_scratch0 : Memref Cert.KernelIdeal.sig Kind.scVector Space.vmem Cert.KernelIdeal.S16 EltTy.i32)
local notation "rV" => (Memref.whole Cert.KernelIdeal.cc0_scratch1 : Memref Cert.KernelIdeal.sig Kind.scVector Space.vmem Cert.KernelIdeal.S1x2048 EltTy.f32)

/-- What the host's reshape leaves in the rank-one copy of the index array: the same entry. -/
def vVal (d : Dev nD) : Buf (Elt F) (vLoc d) := shapeCast S1 (m (aLoc d)) shapeCasts_S1x1_S1

/-- What the result holds at the end: row `r` of every batch of `x0`, `r` the index array's entry. -/
def GVal (d : Dev nD) : Buf (Elt F) (oLoc d) := Cert.Spec.gathered (m (xLoc d)) (m (aLoc d))

/-- What the proof asks of the launch memory: the index array's entry, read unsigned, is a row of `x0`. -/
def PreOK : Prop := ∀ d : Dev nD, Cert.Spec.rowOf (m (aLoc d)) ≤ 4095

/-! ## The result's rows, one per subcore -/

theorem odiv : 4 ∣ S4x1x2048.size 0 := ⟨1, rfl⟩
abbrev orow (i : Fin 4) : Rect S4x1x2048 := Rect.part (s := S4x1x2048) (a₀ := 0) odiv i
abbrev oRowSet (i : Fin 4) : Finset S4x1x2048.Idx := ((oV).view.slice (orow i)).set

/-! ## Quarter shares: the full share halved twice -/

def qs : Fin 4 → PosShare TreeShare
  | 0 => fullShare.left.left
  | 1 => fullShare.left.right
  | 2 => fullShare.right.left
  | 3 => fullShare.right.right

omit m ρ in
/-- A points-to at the full share is its four quarters at once. -/
theorem pointsTo_quarters {ℓ : Loc nD τ sig} (I : Finset (Idx ℓ)) (f : Buf (Elt F) ℓ) :
    (ℓ ↦[I]{fullShare} f : sProp 𝕄) = bigSep Finset.univ fun i : Fin 4 => ℓ ↦[I]{qs i} f := by
  have sp : ∀ q : PosShare TreeShare, (ℓ ↦[I]{q} f : sProp 𝕄) = iprop((ℓ ↦[I]{q.left} f) ∗ ℓ ↦[I]{q.right} f) := fun q =>
    BI.Entails.antisymm (pointsTo_share (PosShare.mem_left_op_right q)).1 (pointsTo_share (PosShare.mem_left_op_right q)).2
  rw [show (Finset.univ : Finset (Fin 4)) = {0, 1, 2, 3} by decide, SparseCore.bigSep_insert' (by decide),
    SparseCore.bigSep_insert' (by decide), SparseCore.bigSep_insert' (by decide), bigSep_singleton]
  show _ = iprop((ℓ ↦[I]{fullShare.left.left} f) ∗ (ℓ ↦[I]{fullShare.left.right} f) ∗ (ℓ ↦[I]{fullShare.right.left} f) ∗ ℓ ↦[I]{fullShare.right.right} f)
  rw [sp fullShare, sp fullShare.left, sp fullShare.right]
  have h1 : ∀ A B C E : sProp 𝕄, iprop((A ∗ B) ∗ C ∗ E) ⊢ iprop(A ∗ B ∗ C ∗ E) := by
    intro A B C E
    iintro ⟨⟨Ha, Hb⟩, Hc, Hd⟩
    isplitl [Ha]; · iexact Ha
    isplitl [Hb]; · iexact Hb
    isplitl [Hc]; · iexact Hc
    iexact Hd
  have h2 : ∀ A B C E : sProp 𝕄, iprop(A ∗ B ∗ C ∗ E) ⊢ iprop((A ∗ B) ∗ C ∗ E) := by
    intro A B C E
    iintro ⟨Ha, Hb, Hc, Hd⟩
    isplitl [Ha Hb]
    · isplitl [Ha]; · iexact Ha
      iexact Hb
    isplitl [Hc]; · iexact Hc
    iexact Hd
  exact BI.Entails.antisymm (h1 _ _ _ _) (h2 _ _ _ _)

variable [FloatOps F]

/-! ## What the handshakes carry -/

abbrev xPts (d : Dev nD) : sProp 𝕄 := xLoc d ↦{fullShare} m (xLoc d)
abbrev vPts (d : Dev nD) : sProp 𝕄 := vLoc d ↦{fullShare} vVal m d
abbrev oPts (d : Dev nD) (f : Buf (Elt F) (oLoc d)) : sProp 𝕄 := oLoc d ↦{fullShare} f
abbrev xSh (d : Dev nD) (i : Fin 4) : sProp 𝕄 := xLoc d ↦{qs i} m (xLoc d)
abbrev vSh (d : Dev nD) (i : Fin 4) : sProp 𝕄 := vLoc d ↦{qs i} vVal m d
abbrev oRowPts (d : Dev nD) (i : Fin 4) (f : Buf (Elt F) (oLoc d)) : sProp 𝕄 := oLoc d ↦[oRowSet i]{fullShare} f

/-- The one call takes `x0`, the rank-one index array and the result whole; each task a quarter share of the first two
    and its own row of the result, and brings them back, the row holding its part of `GVal`. -/
def P : (K (F := F)).Pay (nD := nD) (Val := Elt F) (Name := ℕ) (U := UU) where
  st := fun q d _ => match q with | 0 => iprop(xPts m d ∗ vPts m d ∗ oPts d (m (oLoc d)))
  dn := fun q d _ => match q with | 0 => iprop(xPts m d ∗ vPts m d ∗ oPts d (GVal m d))
  go := fun q d _ i => match q with
    | 0 => iprop(xSh m d (Fin.cast nSub_zero i) ∗ vSh m d (Fin.cast nSub_zero i) ∗ oRowPts d (Fin.cast nSub_zero i) (m (oLoc d)))
  td := fun q d _ i => match q with
    | 0 => iprop(xSh m d (Fin.cast nSub_zero i) ∗ vSh m d (Fin.cast nSub_zero i) ∗ oRowPts d (Fin.cast nSub_zero i) (GVal m d))
  x := fun _ _ => iprop(emp)

instance P_storable : (P (F := F) m).IsStorable where
  st q d _ := match q with
    | 0 => (inferInstance : BI.Storable (upEmb : UEmb _ 𝕄) iprop(xPts m d ∗ vPts m d ∗ oPts d (m (oLoc d))))
  dn q d _ := match q with
    | 0 => (inferInstance : BI.Storable (upEmb : UEmb _ 𝕄) iprop(xPts m d ∗ vPts m d ∗ oPts d (GVal m d)))
  go q d _ i := match q with
    | 0 => (inferInstance : BI.Storable (upEmb : UEmb _ 𝕄)
      iprop(xSh m d (Fin.cast nSub_zero i) ∗ vSh m d (Fin.cast nSub_zero i) ∗ oRowPts d (Fin.cast nSub_zero i) (m (oLoc d))))
  td q d _ i := match q with
    | 0 => (inferInstance : BI.Storable (upEmb : UEmb _ 𝕄)
      iprop(xSh m d (Fin.cast nSub_zero i) ∗ vSh m d (Fin.cast nSub_zero i) ∗ oRowPts d (Fin.cast nSub_zero i) (GVal m d)))

/-! ## The task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_one : grid0.bound 1 = 4 := rfl
abbrev jL (L : grid0.Coords) : Fin 4 := Fin.cast bound_one (L 1)

omit [FloatOps F] in
/-- Every subcore of the grid takes the branch: its number is below four. -/
theorem cond_all : ∀ L : grid0.Coords, k0_cond1 L = 1#1 := by decide +kernel

omit [FloatOps F] in
/-- The batch a subcore works on is its own number. -/
theorem batch_eq : ∀ L : grid0.Coords, (Scalar.addi (BitVec.ofNat 32 (L 1).val) (BitVec.ofNat 32 (L 0).val)).toNat = (L 1).val := by decide +kernel

abbrev orowK (L : grid0.Coords) : Rect S4x1x2048 := Rect.unit (s := S4x1x2048) (k0_off2 L) S1x1x2048.size (k0_off2_inb L (cond_all L))
abbrev oRowK (L : grid0.Coords) : Memref sig .scVector .hbm S1x2048 .f32 := ((oV).slice (orowK L) (fun _ => rfl)).squeeze S1x2048 squeezes_S1x1x2048_S1x2048

omit [FloatOps F] in
/-- The row of the result a subcore writes, as the program slices it, is the part of the result that is its batch. -/
theorem orowK_eq : orowK L = orow (jL L) := by
  have h0 : (L 0).val = 0 := by have := (L 0).isLt; change (L 0).val < 1 at this; omega
  unfold orowK orow Rect.part Rect.block
  congr 1 <;> funext a
  · rw [k0_off2_eq]
    match a with
    | ⟨0, _⟩ => simp [Shape.partIx, Shape.partSize, h0]
    | ⟨1, _⟩ => simp [Shape.partIx, Shape.partSize]
    | ⟨2, _⟩ => simp [Shape.partIx, Shape.partSize]
  · match a with
    | ⟨0, _⟩ => simp [Shape.partSize]
    | ⟨1, _⟩ => simp [Shape.partSize]
    | ⟨2, _⟩ => simp [Shape.partSize]

omit [FloatOps F] in
theorem set_oRowK : (oRowK L).view.set = oRowSet (jL L) := by
  show (((oV).view.slice (orowK L)).reshape S1x2048 squeezes_S1x1x2048_S1x2048.numel_eq).set = ((oV).view.slice (orow (jL L))).set
  rw [View.set_reshape]
  exact orowK_eq L ▸ rfl

omit [FloatOps F] in
theorem pts_oRowK (f : Buf (Elt F) (oLoc d)) :
    ((oRowK L).view.loc (V d (cV L) (jV L)) ↦[(oRowK L).view.set]{fullShare} f : sProp 𝕄) = oLoc d ↦[oRowSet (jL L)]{fullShare} f := by
  rw [set_oRowK]
omit [FloatOps F] in
theorem pts_xV (q : PosShare TreeShare) (f : Buf (Elt F) (xLoc d)) :
    ((xV).view.loc (V d (cV L) (jV L)) ↦{q} f : sProp 𝕄) = xLoc d ↦{q} f := rfl
omit [FloatOps F] in
theorem pts_vV (q : PosShare TreeShare) (f : Buf (Elt F) (vLoc d)) :
    ((vV).view.loc (V d (cV L) (jV L)) ↦{q} f : sProp 𝕄) = vLoc d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)
abbrev cCcell (d : Dev nD) (c : Fin τ.nSC) (i : Fin τ.nSub) : GSem nD τ sig := (V d c i, .dma cc0_scoped2.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped1.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped2.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- Lane 0 of the index scratch, once the rank-one index array has been copied onto it: the index array's entry.
    (The other fifteen lanes keep what the scratch held; the body reads lane 0 only.) -/
theorem word_read (fs : Buf (Elt F) ((V d (cV L) (jV L)).loc cc0_scratch0)) (pay : S1.Idx → Elt F .i32)
    (hpay : pay = (vV).view.read (Elt F) (vVal m d)) :
    extractAt ![0] (k0_pay1 (F := F) ((sV).view.readAt (Elt F) (Rect.unit (s := S16) ![0] S16.size inb_S16_S16_0).toLoadRect
      ((sV).view.writes (Elt F) fs [⟨Rect.unit (s := S16) ![0] S1.size inb_S16_S1_0, pay⟩]))) inpos_S1_p0
      = m (aLoc d) (ix2 (0 : Fin 1) (0 : Fin 1)) := by
  subst hpay
  unfold extractAt k0_pay1
  rw [shapeCast_self]
  rw [extractStridedSlice_apply ![0] _ slices_S16_o0_S1 _ (ix1 (0 : Fin 16)) (fun a => by match a with | ⟨0, _⟩ => rfl)]
  rw [View.readAt_apply]
  have e : (Rect.unit (s := S16) ![0] S16.size inb_S16_S16_0).toLoadRect.idx (ix1 (0 : Fin 16))
      = (Rect.unit (s := S16) ![0] S1.size inb_S16_S1_0).emb (ix1 (0 : Fin 1)) := by
    funext a; match a with | ⟨0, _⟩ => exact Fin.ext rfl
  rw [e, View.read_writes_cons_emb]
  simp only [Memref.view_whole, View.read_whole]
  unfold vVal
  refine shapeCast_apply _ _ _ _ ?_
  show ((⟨2, ![1, 1]⟩ : Shape).rowMajor (ix2 (0 : Fin 1) (0 : Fin 1))).val = ((⟨1, ![1]⟩ : Shape).rowMajor (ix1 (0 : Fin 1))).val
  rw [Shape.rowMajor_val_two, Shape.rowMajor_val_one]; rfl

omit [FloatOps F] in
/-- The body's check of the word it read: the one-row block at (batch, word, 0) lies inside `x0` when the word is a row. -/
theorem chk_of_le (w : BitVec 32) (hw : w.toNat ≤ 4095) : k0_chk1 L w := by
  intro _ a
  have hb : (L 1).val < 4 := (L 1).isLt
  unfold k0_off1
  match a with
  | ⟨0, _⟩ => show (Scalar.addi (BitVec.ofNat 32 (L 1).val) (BitVec.ofNat 32 (L 0).val)).toNat + 1 ≤ 4; rw [batch_eq]; omega
  | ⟨1, _⟩ => show w.toNat + 1 ≤ 4096; omega
  | ⟨2, _⟩ => show 0 + 2048 ≤ 2048; omega

/-! ### Where the rows sit, and what the copied row is -/

abbrev xrowK (L : grid0.Coords) (w : BitVec 32) (hwc : k0_chk1 L w) : Rect S4x4096x2048 :=
  Rect.unit (s := S4x4096x2048) (k0_off1 L w) S1x1x2048.size (k0_off1_inb L w hwc (cond_all L))
abbrev xRowK (L : grid0.Coords) (w : BitVec 32) (hwc : k0_chk1 L w) : Memref sig .scVector .hbm S1x2048 .f32 :=
  ((xV).slice (xrowK L w hwc) (fun _ => rfl)).squeeze S1x2048 squeezes_S1x1x2048_S1x2048

omit [FloatOps F] in
/-- Entry (0, k) of the subcore's row of the result is entry (batch, 0, k) of the result. -/
theorem oRowK_emb (k : Fin 2048) : (oRowK L).view.emb (ix2 (0 : Fin 1) k) = ix3 (jL L) (0 : Fin 1) k := by
  have h0 : (L 0).val = 0 := by have := (L 0).isLt; change (L 0).val < 1 at this; omega
  show (orowK L).emb (Shape.reshapeEquiv squeezes_S1x1x2048_S1x2048.numel_eq (ix2 (0 : Fin 1) k)) = _
  rw [reshapeEquiv_ix2_1ab]
  funext a; apply Fin.ext
  rw [Rect.emb_apply]
  show k0_off2 L a + 1 * ((ix3 (⟨0, Nat.one_pos⟩ : Fin 1) (0 : Fin 1) k) a).val = ((ix3 (jL L) (0 : Fin 1) k) a).val
  rw [k0_off2_eq]
  match a with
  | ⟨0, _⟩ => show (L 1).val + (L 0).val + 1 * 0 = (L 1).val; omega
  | ⟨1, _⟩ => show 0 + 1 * 0 = 0; omega
  | ⟨2, _⟩ => show 0 + 1 * k.val = k.val; omega

omit [FloatOps F] in
/-- Entry (0, k) of the row of `x0` the subcore copies is entry (batch, word, k) of `x0`. -/
theorem xRowK_emb (w : BitVec 32) (hwc : k0_chk1 L w) (hlt : w.toNat < 4096) (k : Fin 2048) :
    (xRowK L w hwc).view.emb (ix2 (0 : Fin 1) k) = ix3 (jL L) (⟨w.toNat, hlt⟩ : Fin 4096) k := by
  show (xrowK L w hwc).emb (Shape.reshapeEquiv squeezes_S1x1x2048_S1x2048.numel_eq (ix2 (0 : Fin 1) k)) = _
  rw [reshapeEquiv_ix2_1ab]
  funext a; apply Fin.ext
  rw [Rect.emb_apply]
  show k0_off1 L w a + 1 * ((ix3 (⟨0, Nat.one_pos⟩ : Fin 1) (0 : Fin 1) k) a).val = ((ix3 (jL L) (⟨w.toNat, hlt⟩ : Fin 4096) k) a).val
  unfold k0_off1
  match a with
  | ⟨0, _⟩ => show (Scalar.addi (BitVec.ofNat 32 (L 1).val) (BitVec.ofNat 32 (L 0).val)).toNat + 1 * 0 = (L 1).val; rw [batch_eq]; omega
  | ⟨1, _⟩ => show w.toNat + 1 * 0 = w.toNat; omega
  | ⟨2, _⟩ => show 0 + 1 * k.val = k.val; omega

omit [FloatOps F] in
/-- The copied row of `x0`, entry by entry, is the subcore's row of `GVal`: both are `x0` at (batch, r, k), `r` the
    index array's entry. -/
theorem row_value (w : BitVec 32) (hwc : k0_chk1 L w) (hwv : w = m (aLoc d) (ix2 (0 : Fin 1) (0 : Fin 1)))
    (hle : Cert.Spec.rowOf (m (aLoc d)) ≤ 4095) (y : S1x2048.Idx) :
    m (xLoc d) ((xRowK L w hwc).view.emb y) = GVal m d ((oRowK L).view.emb y) := by
  obtain ⟨u, k, rfl⟩ : ∃ (u : Fin 1) (k : Fin 2048), y = ix2 u k := ⟨y 0, y 1, eq_ix2 y⟩
  obtain rfl : u = 0 := Subsingleton.elim _ _
  have hlt : w.toNat < 4096 := by subst hwv; unfold Cert.Spec.rowOf at hle; omega
  rw [xRowK_emb L w hwc hlt, oRowK_emb]
  unfold GVal
  rw [Cert.Spec.gathered_apply _ _ hle]
  subst hwv; rfl

omit [FloatOps F] in
/-- What the second copy carries out of the row scratch, after the first copy filled it: the subcore's row of `GVal`. -/
theorem pay_value (w : BitVec 32) (hwc : k0_chk1 L w) (hwv : w = m (aLoc d) (ix2 (0 : Fin 1) (0 : Fin 1)))
    (hle : Cert.Spec.rowOf (m (aLoc d)) ≤ 4095) (fr : Buf (Elt F) ((V d (cV L) (jV L)).loc cc0_scratch1))
    (p1 : S1x2048.Idx → Elt F .f32) (hp1 : p1 = (xRowK L w hwc).view.read (Elt F) (m (xLoc d)))
    (p2 : S1x2048.Idx → Elt F .f32) (hp2 : p2 = (rV).view.read (Elt F) (View.write (Elt F) (rV).view fr p1 Finset.univ)) (y : S1x2048.Idx) :
    p2 y = GVal m d ((oRowK L).view.emb y) := by
  subst hp2 hp1
  rw [View.read_write_univ]
  exact ((View.read_apply _ _).trans (cast_eq _ _)).trans (row_value m d L w hwc hwv hle y)

omit [FloatOps F] in
/-- The subcore's row of the result, once a payload that is its row of `GVal` has been copied onto it. -/
theorem out_row (pay : S1x2048.Idx → Elt F .f32) (hpay : ∀ y, pay y = GVal m d ((oRowK L).view.emb y)) :
    ((oRowK L).view.loc (V d (cV L) (jV L)) ↦[(oRowK L).view.set]{fullShare}
        (oRowK L).view.writes (Elt F) (m (oLoc d)) [⟨Rect.whole S1x2048, pay⟩] : sProp 𝕄)
      = oLoc d ↦[oRowSet (jL L)]{fullShare} GVal m d := by
  rw [pts_oRowK]
  refine pointsTo_congr fun i hi => ?_
  rw [← set_oRowK] at hi
  obtain ⟨y, -, rfl⟩ := Finset.mem_map.mp hi
  have h := View.read_writes_cons_emb (v := (oRowK L).view) (f := m (oLoc d)) (Rect.whole S1x2048) pay [] y
  rw [Rect.emb_whole_apply] at h
  exact (((View.read_apply _ _).trans (cast_eq _ _)).symm.trans h).trans (hpay y)

set_option maxHeartbeats 4000000 in
/-- The task of the vector subcore at grid point `L` on device `d`, whose batch is `b = L 1`. It holds a quarter share of
    `x0` and of the rank-one index array, row `b` of the result, and its own two scratches and three semaphores.
    First copy: the index array onto lane 0 of the index scratch; the wait returns it, and lane 0 is the index entry
    `r` (`word_read`), a row of `x0` by the precondition, so the body's check of the block at (b, r, 0) holds
    (`chk_of_le`). Second copy: that block of `x0`, read under the share, onto the whole row scratch. Third copy: the
    row scratch onto row `b` of the result, which therefore holds `x0` at (b, r, ·): its part of `GVal` (`out_row`).
    Each copy is waited for before the next starts, on a semaphore of its own, so nothing is read or written while in
    flight. The shares, the scratches and the semaphores, back at zero, are handed back. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (xSh m d (jL L) ∗ vSh m d (jL L) ∗ oRowPts d (jL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L xV (Memref.isWhole_whole _) vV (Memref.isWhole_whole _) oV (Memref.isWhole_whole _)
            sV (Memref.isWhole_whole _) rV (Memref.isWhole_whole _) cc0_scoped0 cc0_scoped1 cc0_scoped2)
          fun _ => iprop((xSh m d (jL L) ∗ vSh m d (jL L) ∗ oRowPts d (jL L) (GVal m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  have k0_h1 : k0_cond1 L = 1#1 := cond_all L
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V]
  iintro ⟨#Hlv, -, ⟨Hx, Hv, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ho' := (Entails.of_eq (pts_oRowK (F := F) d L _).symm) $$ Ho
  ihave Hx' := (Entails.of_eq (pts_xV (F := F) d L _ _).symm) $$ Hx
  ihave Hv' := (Entails.of_eq (pts_vV (F := F) d L _ _).symm) $$ Hv
  ihave Hs' := (Entails.of_eq (pts_sV (F := F) d L _).symm) $$ Hs
  ihave Hr' := (Entails.of_eq (pts_rV (F := F) d L _).symm) $$ Hr
  sl_exec
  have hw := word_read m d L fs (tile_body.sl.dma0 m d) rfl
  have hchk : k0_chk1 L (tile_body.sl.v7 m d L fs) := chk_of_le L _ (by rw [show tile_body.sl.v7 m d L fs = _ from hw]; exact hpre d)
  sl_exec
  have hwv : tile_body.sl.v7 m d L fs = m (aLoc d) (ix2 (0 : Fin 1) (0 : Fin 1)) := hw
  sl_step
  isplitl [Hx' Hv' Ho']
  · isplitl [Hx']; · iexact Hx'
    isplitl [Hv']; · iexact Hv'
    iapply (Entails.of_eq (out_row m d L _ (pay_value m d L _ hchk hwv (hpre d) fr _ rfl _ rfl)))
    iexact Ho'
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s)
          xV (Memref.isWhole_whole _) vV (Memref.isWhole_whole _) oV (Memref.isWhole_whole _)
          sV (Memref.isWhole_whole _) rV (Memref.isWhole_whole _) cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Tile

/-! ## The rows of the result split and join; the quarter shares -/

omit [FloatOps F] in
theorem oRowSet_eq (i : Fin 4) : oRowSet i = (orow i).set := by
  show ((View.whole (main_v1_scv : Ref sig .scVector)).slice (orow i)).set = _
  rw [View.set_slice]; exact Finset.map_refl
omit [FloatOps F] in
theorem orows_disjoint : ∀ i ∈ (Finset.univ : Finset (Fin 4)), ∀ j ∈ (Finset.univ : Finset (Fin 4)), i ≠ j → Disjoint (oRowSet i) (oRowSet j) :=
  fun i _ j _ h => by rw [oRowSet_eq, oRowSet_eq]; exact Rect.part_disjoint odiv h
omit [FloatOps F] in
theorem orows_cover : (Finset.univ : Finset (Fin 4)).biUnion oRowSet = Finset.univ :=
  (Finset.biUnion_congr rfl fun i _ => oRowSet_eq i).trans (Rect.biUnion_part odiv)

omit [FloatOps F] in
theorem oPts_rows (d : Dev nD) (f : Buf (Elt F) (oLoc d)) :
    (oLoc d ↦{fullShare} f : sProp 𝕄) = bigSep Finset.univ fun i : Fin 4 => oLoc d ↦[oRowSet i]{fullShare} f := by
  rw [← pointsTo_biUnion Finset.univ (ℓ := oLoc d) oRowSet orows_disjoint, orows_cover]; try rfl

omit [FloatOps F] in
theorem bigSep_tasks (Φ : Fin 4 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show iprop(xPts m d ∗ vPts m d ∗ oPts d (m (oLoc d))) ⊢ |={Set.univ}=> iprop(
      (bigSep Finset.univ fun i : Fin ((K (F := F)).nSub 0) =>
        iprop(xSh m d (Fin.cast nSub_zero i) ∗ vSh m d (Fin.cast nSub_zero i) ∗ oRowPts d (Fin.cast nSub_zero i) (m (oLoc d))))
      ∗ ((bigSep Finset.univ fun i : Fin ((K (F := F)).nSub 0) =>
          iprop(xSh m d (Fin.cast nSub_zero i) ∗ vSh m d (Fin.cast nSub_zero i) ∗ oRowPts d (Fin.cast nSub_zero i) (GVal m d)))
          -∗ iprop(xPts m d ∗ vPts m d ∗ oPts d (GVal m d))))
  rw [bigSep_tasks (F := F) (fun i => iprop(xSh m d i ∗ vSh m d i ∗ oRowPts d i (m (oLoc d)))),
    bigSep_tasks (F := F) (fun i => iprop(xSh m d i ∗ vSh m d i ∗ oRowPts d i (GVal m d))), bigSep_sep', bigSep_sep', bigSep_sep', bigSep_sep']
  unfold xPts vPts oPts xSh vSh oRowPts
  rw [pointsTo_quarters (F := F) (ℓ := xLoc d) Finset.univ (m (xLoc d)), pointsTo_quarters (F := F) (ℓ := vLoc d) Finset.univ (vVal m d),
    oPts_rows d (m (oLoc d)), oPts_rows d (GVal m d)]
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev x' : DevRef τ sig := Proc.devRef .tc (main_arg0 : Ref sig .tc)
abbrev a' : DevRef τ sig := Proc.devRef .tc (main_arg1 : Ref sig .tc)
abbrev v' : DevRef τ sig := Proc.devRef .tc (main_v0 : Ref sig .tc)
abbrev o' : DevRef τ sig := Proc.devRef .tc (main_v1 : Ref sig .tc)
/-- The host's one operation: the index array reshaped to rank one. -/
abbrev opR : HloOp τ sig (Elt F) := StableHlo.reshape main_arg1 main_v0 rfl shapeCasts_S1x1_S1

/-- The TensorCore's four arrays, all unscoped. -/
abbrev S4 : Finset (DevRef τ sig) := {x', a', v', o'}

omit [FloatOps F] in
theorem held_S4 (d : Dev nD) (W : Valuation τ sig (Elt F)) :
    (held (T d) S4 W : sProp 𝕄) = iprop((xLoc d ↦{fullShare} W x') ∗ (aLoc d ↦{fullShare} W a') ∗ (vLoc d ↦{fullShare} W v') ∗ oLoc d ↦{fullShare} W o') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (aLoc d ↦{fullShare} W main_arg1) ∗ (vLoc d ↦{fullShare} W main_v0) ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (T d) S4 (V0 m d) := by
  rw [unscopedBufs_eq, held_S4]; rfl

theorem hR : (opR (F := F)).bufs ⊆ S4 := show ({a', v'} : Finset (DevRef τ sig)) ⊆ S4 by decide

theorem R_x (d : Dev nD) : (opR (F := F)).result (V0 m d) x' = m (xLoc d) :=
  (opR (F := F)).result_of_not_mem (V0 m d) (b := x') (show x' ∉ ({v'} : Finset (DevRef τ sig)) by decide)
theorem R_a (d : Dev nD) : (opR (F := F)).result (V0 m d) a' = m (aLoc d) :=
  (opR (F := F)).result_of_not_mem (V0 m d) (b := a') (show a' ∉ ({v'} : Finset (DevRef τ sig)) by decide)
theorem R_o (d : Dev nD) : (opR (F := F)).result (V0 m d) o' = m (oLoc d) :=
  (opR (F := F)).result_of_not_mem (V0 m d) (b := o') (show o' ∉ ({v'} : Finset (DevRef τ sig)) by decide)
theorem R_v (d : Dev nD) : (opR (F := F)).result (V0 m d) v' = vVal m d :=
  StableHlo.reshape_result main_arg1 main_v0 rfl shapeCasts_S1x1_S1 _ _ (V0 m d)

theorem st0_eq (d : Dev nD) : (bigSep Finset.univ fun c : Fin ((K (F := F)).nCore 0) => (P m).st 0 d c) = iprop(xPts m d ∗ vPts m d ∗ oPts d (m (oLoc d))) :=
  bigSep_univ_of_subsingleton (0 : Fin 1)
theorem dn0_eq (d : Dev nD) : (bigSep Finset.univ fun c : Fin ((K (F := F)).nCore 0) => (P m).dn 0 d c) = iprop(xPts m d ∗ vPts m d ∗ oPts d (GVal m d)) :=
  bigSep_univ_of_subsingleton (0 : Fin 1)

/-- What @main leaves the claim: the two inputs at their launch contents, the result at `GVal`. -/
abbrev FIN (d : Dev nD) : sProp 𝕄 := iprop(xPts m d ∗ (aLoc d ↦{fullShare} m (aLoc d)) ∗ oPts d (GVal m d))

/-- @main on device `d`'s TensorCore: the reshape, then the one call, from `x0`, the rank-one index array and the result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opR) (S := S4) hR (V := V0 m d)) $$ [Hb Hheld]
  · isplitl [Hb]; · iexact Hb
    iexact Hheld
  iintro ⟨Hb, Hheld⟩
  ihave Hh := (Entails.of_eq (held_S4 (F := F) d _)) $$ Hheld
  rw [R_x, R_a, R_v, R_o]
  icases Hh with ⟨Hx, Ha, Hv, Ho⟩
  rw [wp_ret]; imodintro
  iapply ((K (F := F)).wp_run (D (F := F)) 𝒱 (EH := EH) (P := P m) κ d 0) $$ [Hst Hx Hv Ho Ha]
  isplitr; · iexact Hctx
  isplitl [Hst]; · iexact Hst
  isplitl [Hx Hv Ho]
  · rw [st0_eq]
    isplitl [Hx]; · iexact Hx
    isplitl [Hv]; · iexact Hv
    iexact Ho
  iintro ⟨Hst, Hdn⟩
  ihave Hdn' := (Entails.of_eq (dn0_eq m d)) $$ Hdn
  icases Hdn' with ⟨Hx, -, Ho⟩
  imodintro
  isplitl [Hst]; · iexact Hst
  isplitl [Hx]; · iexact Hx
  isplitl [Ha]; · iexact Ha
  iexact Ho

def fq (d : Dev nD) (s' : Phys nD τ sig (Elt F)) : Prop :=
  s'.mem.mem (xLoc d) = m (xLoc d) ∧ s'.mem.mem (aLoc d) = m (aLoc d) ∧ s'.mem.mem (oLoc d) = GVal m d

theorem hfin (d : Dev nD) (s' : Phys nD τ sig (Elt F)) : iprop(FIN m d ∗ SI s') ⊢ (⌜fq m d s'⌝ : sProp 𝕄) := by
  iintro ⟨⟨Hx, Ha, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (SI_pointsTo_agree (st := s') (ℓ := oLoc d) (I := Finset.univ) (q := fullShare) (f := GVal m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- At the end: both inputs as at the launch, the result `GVal`, on every device. -/
def QC : PUnit × MemSt nD τ sig (Elt F) → Prop := fun r => ∀ c : Dev nD,
  r.2.mem (xLoc c) = m (xLoc c) ∧ r.2.mem (aLoc c) = m (aLoc c) ∧ r.2.mem (oLoc c) = GVal m c

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.FrameBits.lean ====
/-
  The kernel's run, at the word level. Four vector subcores of one SparseCore each take one batch `b`: the subcore copies the
  one-entry index array into its index scratch, reads the entry `r`, copies row `r` of batch `b` of `x0` into its row
  scratch, and copies the row scratch out to row `b` of the result. Every subcore reads the same index array and the
  same array `x0`, so each holds a quarter share of both; the result's rows are disjoint, one per subcore. What is
  proved: every weakly fair execution of all the device's threads terminates, nothing faulting, the two inputs
  unchanged and the result equal to `Spec.gathered` of the inputs, provided the index entry is at most 4095.
-/
import proofs.«207829_g962072674457_cont_9to1_m_708_14_alg».proof.Defs
import proofs.«207829_g962072674457_cont_9to1_m_708_14_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueLayout
import proofs.«207829_g962072674457_cont_9to1_m_708_14_alg».proof.Proof.Gen.Kernel
import proofs.«207829_g962072674457_cont_9to1_m_708_14_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 4 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the buffers -/

variable (m : (ℓ : Loc nD τ sig) → Buf (Elt F) ℓ) (ρ : Dev nD → PrngReg)

/-- The array `x0`, the index array, its rank-one copy, and the result, as locations of device `d`. -/
abbrev xLoc (d : Dev nD) : Loc nD τ sig := (SparseCore.T d).loc main_arg0
abbrev aLoc (d : Dev nD) : Loc nD τ sig := (SparseCore.T d).loc main_arg1
abbrev vLoc (d : Dev nD) : Loc nD τ sig := (SparseCore.T d).loc main_v0
abbrev oLoc (d : Dev nD) : Loc nD τ sig := (SparseCore.T d).loc main_v1

local notation "xV" => (Memref.whole Cert.Kernel.main_arg0_scv : Memref Cert.Kernel.sig Kind.scVector Space.hbm Cert.Kernel.S4x4096x2048 EltTy.f32)
local notation "vV" => (Memref.whole Cert.Kernel.main_v0_scv : Memref Cert.Kernel.sig Kind.scVector Space.hbm Cert.Kernel.S1 EltTy.i32)
local notation "oV" => (Memref.whole Cert.Kernel.main_v1_scv : Memref Cert.Kernel.sig Kind.scVector Space.hbm Cert.Kernel.S4x1x2048 EltTy.f32)
local notation "sV" => (Memref.whole Cert.Kernel.cc0_scratch0 : Memref Cert.Kernel.sig Kind.scVector Space.vmem Cert.Kernel.S16 EltTy.i32)
local notation "rV" => (Memref.whole Cert.Kernel.cc0_scratch1 : Memref Cert.Kernel.sig Kind.scVector Space.vmem Cert.Kernel.S1x2048 EltTy.f32)

/-- What the host's reshape leaves in the rank-one copy of the index array: the same entry. -/
def vVal (d : Dev nD) : Buf (Elt F) (vLoc d) := shapeCast S1 (m (aLoc d)) shapeCasts_S1x1_S1

/-- What the result holds at the end: row `r` of every batch of `x0`, `r` the index array's entry. -/
def GVal (d : Dev nD) : Buf (Elt F) (oLoc d) := Cert.Spec.gathered (m (xLoc d)) (m (aLoc d))

/-- What the proof asks of the launch memory: the index array's entry, read unsigned, is a row of `x0`. -/
def PreOK : Prop := ∀ d : Dev nD, Cert.Spec.rowOf (m (aLoc d)) ≤ 4095

/-! ## The result's rows, one per subcore -/

theorem odiv : 4 ∣ S4x1x2048.size 0 := ⟨1, rfl⟩
abbrev orow (i : Fin 4) : Rect S4x1x2048 := Rect.part (s := S4x1x2048) (a₀ := 0) odiv i
abbrev oRowSet (i : Fin 4) : Finset S4x1x2048.Idx := ((oV).view.slice (orow i)).set

/-! ## Quarter shares: the full share halved twice -/

def qs : Fin 4 → PosShare TreeShare
  | 0 => fullShare.left.left
  | 1 => fullShare.left.right
  | 2 => fullShare.right.left
  | 3 => fullShare.right.right

omit m ρ in
/-- A points-to at the full share is its four quarters at once. -/
theorem pointsTo_quarters {ℓ : Loc nD τ sig} (I : Finset (Idx ℓ)) (f : Buf (Elt F) ℓ) :
    (ℓ ↦[I]{fullShare} f : sProp 𝕄) = bigSep Finset.univ fun i : Fin 4 => ℓ ↦[I]{qs i} f := by
  have sp : ∀ q : PosShare TreeShare, (ℓ ↦[I]{q} f : sProp 𝕄) = iprop((ℓ ↦[I]{q.left} f) ∗ ℓ ↦[I]{q.right} f) := fun q =>
    BI.Entails.antisymm (pointsTo_share (PosShare.mem_left_op_right q)).1 (pointsTo_share (PosShare.mem_left_op_right q)).2
  rw [show (Finset.univ : Finset (Fin 4)) = {0, 1, 2, 3} by decide, SparseCore.bigSep_insert' (by decide),
    SparseCore.bigSep_insert' (by decide), SparseCore.bigSep_insert' (by decide), bigSep_singleton]
  show _ = iprop((ℓ ↦[I]{fullShare.left.left} f) ∗ (ℓ ↦[I]{fullShare.left.right} f) ∗ (ℓ ↦[I]{fullShare.right.left} f) ∗ ℓ ↦[I]{fullShare.right.right} f)
  rw [sp fullShare, sp fullShare.left, sp fullShare.right]
  have h1 : ∀ A B C E : sProp 𝕄, iprop((A ∗ B) ∗ C ∗ E) ⊢ iprop(A ∗ B ∗ C ∗ E) := by
    intro A B C E
    iintro ⟨⟨Ha, Hb⟩, Hc, Hd⟩
    isplitl [Ha]; · iexact Ha
    isplitl [Hb]; · iexact Hb
    isplitl [Hc]; · iexact Hc
    iexact Hd
  have h2 : ∀ A B C E : sProp 𝕄, iprop(A ∗ B ∗ C ∗ E) ⊢ iprop((A ∗ B) ∗ C ∗ E) := by
    intro A B C E
    iintro ⟨Ha, Hb, Hc, Hd⟩
    isplitl [Ha Hb]
    · isplitl [Ha]; · iexact Ha
      iexact Hb
    isplitl [Hc]; · iexact Hc
    iexact Hd
  exact BI.Entails.antisymm (h1 _ _ _ _) (h2 _ _ _ _)

variable [FloatOps F]

/-! ## What the handshakes carry -/

abbrev xPts (d : Dev nD) : sProp 𝕄 := xLoc d ↦{fullShare} m (xLoc d)
abbrev vPts (d : Dev nD) : sProp 𝕄 := vLoc d ↦{fullShare} vVal m d
abbrev oPts (d : Dev nD) (f : Buf (Elt F) (oLoc d)) : sProp 𝕄 := oLoc d ↦{fullShare} f
abbrev xSh (d : Dev nD) (i : Fin 4) : sProp 𝕄 := xLoc d ↦{qs i} m (xLoc d)
abbrev vSh (d : Dev nD) (i : Fin 4) : sProp 𝕄 := vLoc d ↦{qs i} vVal m d
abbrev oRowPts (d : Dev nD) (i : Fin 4) (f : Buf (Elt F) (oLoc d)) : sProp 𝕄 := oLoc d ↦[oRowSet i]{fullShare} f

/-- The one call takes `x0`, the rank-one index array and the result whole; each task a quarter share of the first two
    and its own row of the result, and brings them back, the row holding its part of `GVal`. -/
def P : (K (F := F)).Pay (nD := nD) (Val := Elt F) (Name := ℕ) (U := UU) where
  st := fun q d _ => match q with | 0 => iprop(xPts m d ∗ vPts m d ∗ oPts d (m (oLoc d)))
  dn := fun q d _ => match q with | 0 => iprop(xPts m d ∗ vPts m d ∗ oPts d (GVal m d))
  go := fun q d _ i => match q with
    | 0 => iprop(xSh m d (Fin.cast nSub_zero i) ∗ vSh m d (Fin.cast nSub_zero i) ∗ oRowPts d (Fin.cast nSub_zero i) (m (oLoc d)))
  td := fun q d _ i => match q with
    | 0 => iprop(xSh m d (Fin.cast nSub_zero i) ∗ vSh m d (Fin.cast nSub_zero i) ∗ oRowPts d (Fin.cast nSub_zero i) (GVal m d))
  x := fun _ _ => iprop(emp)

instance P_storable : (P (F := F) m).IsStorable where
  st q d _ := match q with
    | 0 => (inferInstance : BI.Storable (upEmb : UEmb _ 𝕄) iprop(xPts m d ∗ vPts m d ∗ oPts d (m (oLoc d))))
  dn q d _ := match q with
    | 0 => (inferInstance : BI.Storable (upEmb : UEmb _ 𝕄) iprop(xPts m d ∗ vPts m d ∗ oPts d (GVal m d)))
  go q d _ i := match q with
    | 0 => (inferInstance : BI.Storable (upEmb : UEmb _ 𝕄)
      iprop(xSh m d (Fin.cast nSub_zero i) ∗ vSh m d (Fin.cast nSub_zero i) ∗ oRowPts d (Fin.cast nSub_zero i) (m (oLoc d))))
  td q d _ i := match q with
    | 0 => (inferInstance : BI.Storable (upEmb : UEmb _ 𝕄)
      iprop(xSh m d (Fin.cast nSub_zero i) ∗ vSh m d (Fin.cast nSub_zero i) ∗ oRowPts d (Fin.cast nSub_zero i) (GVal m d)))

/-! ## The task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_one : grid0.bound 1 = 4 := rfl
abbrev jL (L : grid0.Coords) : Fin 4 := Fin.cast bound_one (L 1)

omit [FloatOps F] in
/-- Every subcore of the grid takes the branch: its number is below four. -/
theorem cond_all : ∀ L : grid0.Coords, k0_cond1 L = 1#1 := by decide +kernel

omit [FloatOps F] in
/-- The batch a subcore works on is its own number. -/
theorem batch_eq : ∀ L : grid0.Coords, (Scalar.addi (BitVec.ofNat 32 (L 1).val) (BitVec.ofNat 32 (L 0).val)).toNat = (L 1).val := by decide +kernel

abbrev orowK (L : grid0.Coords) : Rect S4x1x2048 := Rect.unit (s := S4x1x2048) (k0_off2 L) S1x1x2048.size (k0_off2_inb L (cond_all L))
abbrev oRowK (L : grid0.Coords) : Memref sig .scVector .hbm S1x2048 .f32 := ((oV).slice (orowK L) (fun _ => rfl)).squeeze S1x2048 squeezes_S1x1x2048_S1x2048

omit [FloatOps F] in
/-- The row of the result a subcore writes, as the program slices it, is the part of the result that is its batch. -/
theorem orowK_eq : orowK L = orow (jL L) := by
  have h0 : (L 0).val = 0 := by have := (L 0).isLt; change (L 0).val < 1 at this; omega
  unfold orowK orow Rect.part Rect.block
  congr 1 <;> funext a
  · rw [k0_off2_eq]
    match a with
    | ⟨0, _⟩ => simp [Shape.partIx, Shape.partSize, h0]
    | ⟨1, _⟩ => simp [Shape.partIx, Shape.partSize]
    | ⟨2, _⟩ => simp [Shape.partIx, Shape.partSize]
  · match a with
    | ⟨0, _⟩ => simp [Shape.partSize]
    | ⟨1, _⟩ => simp [Shape.partSize]
    | ⟨2, _⟩ => simp [Shape.partSize]

omit [FloatOps F] in
theorem set_oRowK : (oRowK L).view.set = oRowSet (jL L) := by
  show (((oV).view.slice (orowK L)).reshape S1x2048 squeezes_S1x1x2048_S1x2048.numel_eq).set = ((oV).view.slice (orow (jL L))).set
  rw [View.set_reshape]
  exact orowK_eq L ▸ rfl

omit [FloatOps F] in
theorem pts_oRowK (f : Buf (Elt F) (oLoc d)) :
    ((oRowK L).view.loc (V d (cV L) (jV L)) ↦[(oRowK L).view.set]{fullShare} f : sProp 𝕄) = oLoc d ↦[oRowSet (jL L)]{fullShare} f := by
  rw [set_oRowK]
omit [FloatOps F] in
theorem pts_xV (q : PosShare TreeShare) (f : Buf (Elt F) (xLoc d)) :
    ((xV).view.loc (V d (cV L) (jV L)) ↦{q} f : sProp 𝕄) = xLoc d ↦{q} f := rfl
omit [FloatOps F] in
theorem pts_vV (q : PosShare TreeShare) (f : Buf (Elt F) (vLoc d)) :
    ((vV).view.loc (V d (cV L) (jV L)) ↦{q} f : sProp 𝕄) = vLoc d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)
abbrev cCcell (d : Dev nD) (c : Fin τ.nSC) (i : Fin τ.nSub) : GSem nD τ sig := (V d c i, .dma cc0_scoped2.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped1.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped2.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- Lane 0 of the index scratch, once the rank-one index array has been copied onto it: the index array's entry.
    (The other fifteen lanes keep what the scratch held; the body reads lane 0 only.) -/
theorem word_read (fs : Buf (Elt F) ((V d (cV L) (jV L)).loc cc0_scratch0)) (pay : S1.Idx → Elt F .i32)
    (hpay : pay = (vV).view.read (Elt F) (vVal m d)) :
    extractAt ![0] (k0_pay1 (F := F) ((sV).view.readAt (Elt F) (Rect.unit (s := S16) ![0] S16.size inb_S16_S16_0).toLoadRect
      ((sV).view.writes (Elt F) fs [⟨Rect.unit (s := S16) ![0] S1.size inb_S16_S1_0, pay⟩]))) inpos_S1_p0
      = m (aLoc d) (ix2 (0 : Fin 1) (0 : Fin 1)) := by
  subst hpay
  unfold extractAt k0_pay1
  rw [shapeCast_self]
  rw [extractStridedSlice_apply ![0] _ slices_S16_o0_S1 _ (ix1 (0 : Fin 16)) (fun a => by match a with | ⟨0, _⟩ => rfl)]
  rw [View.readAt_apply]
  have e : (Rect.unit (s := S16) ![0] S16.size inb_S16_S16_0).toLoadRect.idx (ix1 (0 : Fin 16))
      = (Rect.unit (s := S16) ![0] S1.size inb_S16_S1_0).emb (ix1 (0 : Fin 1)) := by
    funext a; match a with | ⟨0, _⟩ => exact Fin.ext rfl
  rw [e, View.read_writes_cons_emb]
  simp only [Memref.view_whole, View.read_whole]
  unfold vVal
  refine shapeCast_apply _ _ _ _ ?_
  show ((⟨2, ![1, 1]⟩ : Shape).rowMajor (ix2 (0 : Fin 1) (0 : Fin 1))).val = ((⟨1, ![1]⟩ : Shape).rowMajor (ix1 (0 : Fin 1))).val
  rw [Shape.rowMajor_val_two, Shape.rowMajor_val_one]; rfl

omit [FloatOps F] in
/-- The body's check of the word it read: the one-row block at (batch, word, 0) lies inside `x0` when the word is a row. -/
theorem chk_of_le (w : BitVec 32) (hw : w.toNat ≤ 4095) : k0_chk1 L w := by
  intro _ a
  have hb : (L 1).val < 4 := (L 1).isLt
  unfold k0_off1
  match a with
  | ⟨0, _⟩ => show (Scalar.addi (BitVec.ofNat 32 (L 1).val) (BitVec.ofNat 32 (L 0).val)).toNat + 1 ≤ 4; rw [batch_eq]; omega
  | ⟨1, _⟩ => show w.toNat + 1 ≤ 4096; omega
  | ⟨2, _⟩ => show 0 + 2048 ≤ 2048; omega

/-! ### Where the rows sit, and what the copied row is -/

abbrev xrowK (L : grid0.Coords) (w : BitVec 32) (hwc : k0_chk1 L w) : Rect S4x4096x2048 :=
  Rect.unit (s := S4x4096x2048) (k0_off1 L w) S1x1x2048.size (k0_off1_inb L w hwc (cond_all L))
abbrev xRowK (L : grid0.Coords) (w : BitVec 32) (hwc : k0_chk1 L w) : Memref sig .scVector .hbm S1x2048 .f32 :=
  ((xV).slice (xrowK L w hwc) (fun _ => rfl)).squeeze S1x2048 squeezes_S1x1x2048_S1x2048

omit [FloatOps F] in
/-- Entry (0, k) of the subcore's row of the result is entry (batch, 0, k) of the result. -/
theorem oRowK_emb (k : Fin 2048) : (oRowK L).view.emb (ix2 (0 : Fin 1) k) = ix3 (jL L) (0 : Fin 1) k := by
  have h0 : (L 0).val = 0 := by have := (L 0).isLt; change (L 0).val < 1 at this; omega
  show (orowK L).emb (Shape.reshapeEquiv squeezes_S1x1x2048_S1x2048.numel_eq (ix2 (0 : Fin 1) k)) = _
  rw [reshapeEquiv_ix2_1ab]
  funext a; apply Fin.ext
  rw [Rect.emb_apply]
  show k0_off2 L a + 1 * ((ix3 (⟨0, Nat.one_pos⟩ : Fin 1) (0 : Fin 1) k) a).val = ((ix3 (jL L) (0 : Fin 1) k) a).val
  rw [k0_off2_eq]
  match a with
  | ⟨0, _⟩ => show (L 1).val + (L 0).val + 1 * 0 = (L 1).val; omega
  | ⟨1, _⟩ => show 0 + 1 * 0 = 0; omega
  | ⟨2, _⟩ => show 0 + 1 * k.val = k.val; omega

omit [FloatOps F] in
/-- Entry (0, k) of the row of `x0` the subcore copies is entry (batch, word, k) of `x0`. -/
theorem xRowK_emb (w : BitVec 32) (hwc : k0_chk1 L w) (hlt : w.toNat < 4096) (k : Fin 2048) :
    (xRowK L w hwc).view.emb (ix2 (0 : Fin 1) k) = ix3 (jL L) (⟨w.toNat, hlt⟩ : Fin 4096) k := by
  show (xrowK L w hwc).emb (Shape.reshapeEquiv squeezes_S1x1x2048_S1x2048.numel_eq (ix2 (0 : Fin 1) k)) = _
  rw [reshapeEquiv_ix2_1ab]
  funext a; apply Fin.ext
  rw [Rect.emb_apply]
  show k0_off1 L w a + 1 * ((ix3 (⟨0, Nat.one_pos⟩ : Fin 1) (0 : Fin 1) k) a).val = ((ix3 (jL L) (⟨w.toNat, hlt⟩ : Fin 4096) k) a).val
  unfold k0_off1
  match a with
  | ⟨0, _⟩ => show (Scalar.addi (BitVec.ofNat 32 (L 1).val) (BitVec.ofNat 32 (L 0).val)).toNat + 1 * 0 = (L 1).val; rw [batch_eq]; omega
  | ⟨1, _⟩ => show w.toNat + 1 * 0 = w.toNat; omega
  | ⟨2, _⟩ => show 0 + 1 * k.val = k.val; omega

omit [FloatOps F] in
/-- The copied row of `x0`, entry by entry, is the subcore's row of `GVal`: both are `x0` at (batch, r, k), `r` the
    index array's entry. -/
theorem row_value (w : BitVec 32) (hwc : k0_chk1 L w) (hwv : w = m (aLoc d) (ix2 (0 : Fin 1) (0 : Fin 1)))
    (hle : Cert.Spec.rowOf (m (aLoc d)) ≤ 4095) (y : S1x2048.Idx) :
    m (xLoc d) ((xRowK L w hwc).view.emb y) = GVal m d ((oRowK L).view.emb y) := by
  obtain ⟨u, k, rfl⟩ : ∃ (u : Fin 1) (k : Fin 2048), y = ix2 u k := ⟨y 0, y 1, eq_ix2 y⟩
  obtain rfl : u = 0 := Subsingleton.elim _ _
  have hlt : w.toNat < 4096 := by subst hwv; unfold Cert.Spec.rowOf at hle; omega
  rw [xRowK_emb L w hwc hlt, oRowK_emb]
  unfold GVal
  rw [Cert.Spec.gathered_apply _ _ hle]
  subst hwv; rfl

omit [FloatOps F] in
/-- What the second copy carries out of the row scratch, after the first copy filled it: the subcore's row of `GVal`. -/
theorem pay_value (w : BitVec 32) (hwc : k0_chk1 L w) (hwv : w = m (aLoc d) (ix2 (0 : Fin 1) (0 : Fin 1)))
    (hle : Cert.Spec.rowOf (m (aLoc d)) ≤ 4095) (fr : Buf (Elt F) ((V d (cV L) (jV L)).loc cc0_scratch1))
    (p1 : S1x2048.Idx → Elt F .f32) (hp1 : p1 = (xRowK L w hwc).view.read (Elt F) (m (xLoc d)))
    (p2 : S1x2048.Idx → Elt F .f32) (hp2 : p2 = (rV).view.read (Elt F) (View.write (Elt F) (rV).view fr p1 Finset.univ)) (y : S1x2048.Idx) :
    p2 y = GVal m d ((oRowK L).view.emb y) := by
  subst hp2 hp1
  rw [View.read_write_univ]
  exact ((View.read_apply _ _).trans (cast_eq _ _)).trans (row_value m d L w hwc hwv hle y)

omit [FloatOps F] in
/-- The subcore's row of the result, once a payload that is its row of `GVal` has been copied onto it. -/
theorem out_row (pay : S1x2048.Idx → Elt F .f32) (hpay : ∀ y, pay y = GVal m d ((oRowK L).view.emb y)) :
    ((oRowK L).view.loc (V d (cV L) (jV L)) ↦[(oRowK L).view.set]{fullShare}
        (oRowK L).view.writes (Elt F) (m (oLoc d)) [⟨Rect.whole S1x2048, pay⟩] : sProp 𝕄)
      = oLoc d ↦[oRowSet (jL L)]{fullShare} GVal m d := by
  rw [pts_oRowK]
  refine pointsTo_congr fun i hi => ?_
  rw [← set_oRowK] at hi
  obtain ⟨y, -, rfl⟩ := Finset.mem_map.mp hi
  have h := View.read_writes_cons_emb (v := (oRowK L).view) (f := m (oLoc d)) (Rect.whole S1x2048) pay [] y
  rw [Rect.emb_whole_apply] at h
  exact (((View.read_apply _ _).trans (cast_eq _ _)).symm.trans h).trans (hpay y)

set_option maxHeartbeats 4000000 in
/-- The task of the vector subcore at grid point `L` on device `d`, whose batch is `b = L 1`. It holds a quarter share of
    `x0` and of the rank-one index array, row `b` of the result, and its own two scratches and three semaphores.
    First copy: the index array onto lane 0 of the index scratch; the wait returns it, and lane 0 is the index entry
    `r` (`word_read`), a row of `x0` by the precondition, so the body's check of the block at (b, r, 0) holds
    (`chk_of_le`). Second copy: that block of `x0`, read under the share, onto the whole row scratch. Third copy: the
    row scratch onto row `b` of the result, which therefore holds `x0` at (b, r, ·): its part of `GVal` (`out_row`).
    Each copy is waited for before the next starts, on a semaphore of its own, so nothing is read or written while in
    flight. The shares, the scratches and the semaphores, back at zero, are handed back. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (xSh m d (jL L) ∗ vSh m d (jL L) ∗ oRowPts d (jL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L xV (Memref.isWhole_whole _) vV (Memref.isWhole_whole _) oV (Memref.isWhole_whole _)
            sV (Memref.isWhole_whole _) rV (Memref.isWhole_whole _) cc0_scoped0 cc0_scoped1 cc0_scoped2)
          fun _ => iprop((xSh m d (jL L) ∗ vSh m d (jL L) ∗ oRowPts d (jL L) (GVal m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  have k0_h1 : k0_cond1 L = 1#1 := cond_all L
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V]
  iintro ⟨#Hlv, -, ⟨Hx, Hv, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ho' := (Entails.of_eq (pts_oRowK (F := F) d L _).symm) $$ Ho
  ihave Hx' := (Entails.of_eq (pts_xV (F := F) d L _ _).symm) $$ Hx
  ihave Hv' := (Entails.of_eq (pts_vV (F := F) d L _ _).symm) $$ Hv
  ihave Hs' := (Entails.of_eq (pts_sV (F := F) d L _).symm) $$ Hs
  ihave Hr' := (Entails.of_eq (pts_rV (F := F) d L _).symm) $$ Hr
  sl_exec
  have hw := word_read m d L fs (tile_body.sl.dma0 m d) rfl
  have hchk : k0_chk1 L (tile_body.sl.v7 m d L fs) := chk_of_le L _ (by rw [show tile_body.sl.v7 m d L fs = _ from hw]; exact hpre d)
  sl_exec
  have hwv : tile_body.sl.v7 m d L fs = m (aLoc d) (ix2 (0 : Fin 1) (0 : Fin 1)) := hw
  sl_step
  isplitl [Hx' Hv' Ho']
  · isplitl [Hx']; · iexact Hx'
    isplitl [Hv']; · iexact Hv'
    iapply (Entails.of_eq (out_row m d L _ (pay_value m d L _ hchk hwv (hpre d) fr _ rfl _ rfl)))
    iexact Ho'
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s)
          xV (Memref.isWhole_whole _) vV (Memref.isWhole_whole _) oV (Memref.isWhole_whole _)
          sV (Memref.isWhole_whole _) rV (Memref.isWhole_whole _) cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Tile

/-! ## The rows of the result split and join; the quarter shares -/

omit [FloatOps F] in
theorem oRowSet_eq (i : Fin 4) : oRowSet i = (orow i).set := by
  show ((View.whole (main_v1_scv : Ref sig .scVector)).slice (orow i)).set = _
  rw [View.set_slice]; exact Finset.map_refl
omit [FloatOps F] in
theorem orows_disjoint : ∀ i ∈ (Finset.univ : Finset (Fin 4)), ∀ j ∈ (Finset.univ : Finset (Fin 4)), i ≠ j → Disjoint (oRowSet i) (oRowSet j) :=
  fun i _ j _ h => by rw [oRowSet_eq, oRowSet_eq]; exact Rect.part_disjoint odiv h
omit [FloatOps F] in
theorem orows_cover : (Finset.univ : Finset (Fin 4)).biUnion oRowSet = Finset.univ :=
  (Finset.biUnion_congr rfl fun i _ => oRowSet_eq i).trans (Rect.biUnion_part odiv)

omit [FloatOps F] in
theorem oPts_rows (d : Dev nD) (f : Buf (Elt F) (oLoc d)) :
    (oLoc d ↦{fullShare} f : sProp 𝕄) = bigSep Finset.univ fun i : Fin 4 => oLoc d ↦[oRowSet i]{fullShare} f := by
  rw [← pointsTo_biUnion Finset.univ (ℓ := oLoc d) oRowSet orows_disjoint, orows_cover]; try rfl

omit [FloatOps F] in
theorem bigSep_tasks (Φ : Fin 4 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show iprop(xPts m d ∗ vPts m d ∗ oPts d (m (oLoc d))) ⊢ |={Set.univ}=> iprop(
      (bigSep Finset.univ fun i : Fin ((K (F := F)).nSub 0) =>
        iprop(xSh m d (Fin.cast nSub_zero i) ∗ vSh m d (Fin.cast nSub_zero i) ∗ oRowPts d (Fin.cast nSub_zero i) (m (oLoc d))))
      ∗ ((bigSep Finset.univ fun i : Fin ((K (F := F)).nSub 0) =>
          iprop(xSh m d (Fin.cast nSub_zero i) ∗ vSh m d (Fin.cast nSub_zero i) ∗ oRowPts d (Fin.cast nSub_zero i) (GVal m d)))
          -∗ iprop(xPts m d ∗ vPts m d ∗ oPts d (GVal m d))))
  rw [bigSep_tasks (F := F) (fun i => iprop(xSh m d i ∗ vSh m d i ∗ oRowPts d i (m (oLoc d)))),
    bigSep_tasks (F := F) (fun i => iprop(xSh m d i ∗ vSh m d i ∗ oRowPts d i (GVal m d))), bigSep_sep', bigSep_sep', bigSep_sep', bigSep_sep']
  unfold xPts vPts oPts xSh vSh oRowPts
  rw [pointsTo_quarters (F := F) (ℓ := xLoc d) Finset.univ (m (xLoc d)), pointsTo_quarters (F := F) (ℓ := vLoc d) Finset.univ (vVal m d),
    oPts_rows d (m (oLoc d)), oPts_rows d (GVal m d)]
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev x' : DevRef τ sig := Proc.devRef .tc (main_arg0 : Ref sig .tc)
abbrev a' : DevRef τ sig := Proc.devRef .tc (main_arg1 : Ref sig .tc)
abbrev v' : DevRef τ sig := Proc.devRef .tc (main_v0 : Ref sig .tc)
abbrev o' : DevRef τ sig := Proc.devRef .tc (main_v1 : Ref sig .tc)
/-- The host's one operation: the index array reshaped to rank one. -/
abbrev opR : HloOp τ sig (Elt F) := StableHlo.reshape main_arg1 main_v0 rfl shapeCasts_S1x1_S1

/-- The TensorCore's four arrays, all unscoped. -/
abbrev S4 : Finset (DevRef τ sig) := {x', a', v', o'}

omit [FloatOps F] in
theorem held_S4 (d : Dev nD) (W : Valuation τ sig (Elt F)) :
    (held (T d) S4 W : sProp 𝕄) = iprop((xLoc d ↦{fullShare} W x') ∗ (aLoc d ↦{fullShare} W a') ∗ (vLoc d ↦{fullShare} W v') ∗ oLoc d ↦{fullShare} W o') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (aLoc d ↦{fullShare} W main_arg1) ∗ (vLoc d ↦{fullShare} W main_v0) ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (T d) S4 (V0 m d) := by
  rw [unscopedBufs_eq, held_S4]; rfl

theorem hR : (opR (F := F)).bufs ⊆ S4 := show ({a', v'} : Finset (DevRef τ sig)) ⊆ S4 by decide

theorem R_x (d : Dev nD) : (opR (F := F)).result (V0 m d) x' = m (xLoc d) :=
  (opR (F := F)).result_of_not_mem (V0 m d) (b := x') (show x' ∉ ({v'} : Finset (DevRef τ sig)) by decide)
theorem R_a (d : Dev nD) : (opR (F := F)).result (V0 m d) a' = m (aLoc d) :=
  (opR (F := F)).result_of_not_mem (V0 m d) (b := a') (show a' ∉ ({v'} : Finset (DevRef τ sig)) by decide)
theorem R_o (d : Dev nD) : (opR (F := F)).result (V0 m d) o' = m (oLoc d) :=
  (opR (F := F)).result_of_not_mem (V0 m d) (b := o') (show o' ∉ ({v'} : Finset (DevRef τ sig)) by decide)
theorem R_v (d : Dev nD) : (opR (F := F)).result (V0 m d) v' = vVal m d :=
  StableHlo.reshape_result main_arg1 main_v0 rfl shapeCasts_S1x1_S1 _ _ (V0 m d)

theorem st0_eq (d : Dev nD) : (bigSep Finset.univ fun c : Fin ((K (F := F)).nCore 0) => (P m).st 0 d c) = iprop(xPts m d ∗ vPts m d ∗ oPts d (m (oLoc d))) :=
  bigSep_univ_of_subsingleton (0 : Fin 1)
theorem dn0_eq (d : Dev nD) : (bigSep Finset.univ fun c : Fin ((K (F := F)).nCore 0) => (P m).dn 0 d c) = iprop(xPts m d ∗ vPts m d ∗ oPts d (GVal m d)) :=
  bigSep_univ_of_subsingleton (0 : Fin 1)

/-- What @main leaves the claim: the two inputs at their launch contents, the result at `GVal`. -/
abbrev FIN (d : Dev nD) : sProp 𝕄 := iprop(xPts m d ∗ (aLoc d ↦{fullShare} m (aLoc d)) ∗ oPts d (GVal m d))

/-- @main on device `d`'s TensorCore: the reshape, then the one call, from `x0`, the rank-one index array and the result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opR) (S := S4) hR (V := V0 m d)) $$ [Hb Hheld]
  · isplitl [Hb]; · iexact Hb
    iexact Hheld
  iintro ⟨Hb, Hheld⟩
  ihave Hh := (Entails.of_eq (held_S4 (F := F) d _)) $$ Hheld
  rw [R_x, R_a, R_v, R_o]
  icases Hh with ⟨Hx, Ha, Hv, Ho⟩
  rw [wp_ret]; imodintro
  iapply ((K (F := F)).wp_run (D (F := F)) 𝒱 (EH := EH) (P := P m) κ d 0) $$ [Hst Hx Hv Ho Ha]
  isplitr; · iexact Hctx
  isplitl [Hst]; · iexact Hst
  isplitl [Hx Hv Ho]
  · rw [st0_eq]
    isplitl [Hx]; · iexact Hx
    isplitl [Hv]; · iexact Hv
    iexact Ho
  iintro ⟨Hst, Hdn⟩
  ihave Hdn' := (Entails.of_eq (dn0_eq m d)) $$ Hdn
  icases Hdn' with ⟨Hx, -, Ho⟩
  imodintro
  isplitl [Hst]; · iexact Hst
  isplitl [Hx]; · iexact Hx
  isplitl [Ha]; · iexact Ha
  iexact Ho

def fq (d : Dev nD) (s' : Phys nD τ sig (Elt F)) : Prop :=
  s'.mem.mem (xLoc d) = m (xLoc d) ∧ s'.mem.mem (aLoc d) = m (aLoc d) ∧ s'.mem.mem (oLoc d) = GVal m d

theorem hfin (d : Dev nD) (s' : Phys nD τ sig (Elt F)) : iprop(FIN m d ∗ SI s') ⊢ (⌜fq m d s'⌝ : sProp 𝕄) := by
  iintro ⟨⟨Hx, Ha, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (SI_pointsTo_agree (st := s') (ℓ := oLoc d) (I := Finset.univ) (q := fullShare) (f := GVal m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- At the end: both inputs as at the launch, the result `GVal`, on every device. -/
def QC : PUnit × MemSt nD τ sig (Elt F) → Prop := fun r => ∀ c : Dev nD,
  r.2.mem (xLoc c) = m (xLoc c) ∧ r.2.mem (aLoc c) = m (aLoc c) ∧ r.2.mem (oLoc c) = GVal m c

theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.lean ====
/-
  The claim. The kernel and its reference both return, for an array `x0` of shape [4, 4096, 2048] and a one-entry index
  array whose entry `r` lies in [0, 4095], the block of shape [4, 1, 2048] that is row `r` of every batch of `x0`
  (`Spec.gathered`). The kernel does it with four vector subcores, one per batch, each copying the index entry into its
  own scratch, reading it, copying that row of its batch into a row scratch and the row scratch out to its row of the
  result; the reference with one dynamic slice. Nothing is computed on the entries of `x0`, so the equality is an
  equation between indices and needs no finiteness.

  The three frames: the kernel's two printed forms run to the end with their inputs unchanged (Proof/FrameBits.lean,
  Proof/FrameIdeal.lean: every subcore's index read is in range because the precondition bounds the entry), and the
  reference's run is its sequence of host operations. The idealization rewrote nothing, so what it preserves is trivial.
  The two results agree because each is `Spec.gathered` of the same arguments (Proof/FrameIdeal.lean for the kernel,
  Proof/RefValue.lean for the reference; Proof/PreRead.lean reads the entry's range off the precondition).
-/
import proofs.«207829_g962072674457_cont_9to1_m_708_14_alg».proof.Defs
import proofs.«207829_g962072674457_cont_9to1_m_708_14_alg».proof.Proof.Gen.Kernel
import proofs.«207829_g962072674457_cont_9to1_m_708_14_alg».proof.Proof.Gen.Kernel.Skeleton
import proofs.«207829_g962072674457_cont_9to1_m_708_14_alg».proof.Proof.Gen.KernelIdeal
import proofs.«207829_g962072674457_cont_9to1_m_708_14_alg».proof.Proof.Gen.KernelIdeal.Skeleton
import proofs.«207829_g962072674457_cont_9to1_m_708_14_alg».proof.Proof.Gen.ReferenceIdeal
import proofs.«207829_g962072674457_cont_9to1_m_708_14_alg».proof.Proof.Gen.ReferenceIdeal.Run
import proofs.«207829_g962072674457_cont_9to1_m_708_14_alg».proof.Proof.Gen.ReferenceIdeal.Read
import proofs.«207829_g962072674457_cont_9to1_m_708_14_alg».proof.Proof.Gen.Pre_input_domain
import proofs.«207829_g962072674457_cont_9to1_m_708_14_alg».proof.Proof.Spec
import proofs.«207829_g962072674457_cont_9to1_m_708_14_alg».proof.Proof.PreRead
import proofs.«207829_g962072674457_cont_9to1_m_708_14_alg».proof.Proof.RefValue
import proofs.«207829_g962072674457_cont_9to1_m_708_14_alg».proof.Proof.FrameIdeal
import proofs.«207829_g962072674457_cont_9to1_m_708_14_alg».proof.Proof.FrameBits
import Idealize.ShloMosaic.Adequacy
import Idealize.ShloMosaic.Init

noncomputable section

namespace Cert.Proof

open Idealize.ShloMosaic Idealize.SL.Sem

/-- The word-level kernel: under the precondition the index entry is a row, so the run goes through; the inputs are kept. -/
theorem frame_k : Cert.frame_Kernel (hKernel := Cert.Kernel.Gen.facts) (hPre_input_domain := Cert.Pre_input_domain.Gen.facts) := fun m ρ hpre =>
  (θ_run Cert.Kernel.defs _ _).mono (fun _ h c => ⟨(h c).1, (h c).2.1⟩)
    (Cert.Proof.KB.run_main (F := Bits) m ρ (fun d => Cert.PreRead.row_of_pre _ _ (hpre d)))

/-- The idealized kernel: the same run read at the extended reals. -/
theorem frame_ki : Cert.frame_KernelIdeal (hKernelIdeal := Cert.KernelIdeal.Gen.facts) (hPre_input_domain := Cert.Pre_input_domain.Gen.facts) := fun m ρ hpre =>
  (θ_run Cert.KernelIdeal.defs _ _).mono (fun _ h c => ⟨(h c).1, (h c).2.1⟩)
    (Cert.Proof.KI.run_main (F := Ideal) m ρ (fun d => Cert.PreRead.row_of_pre _ _ (hpre d)))

/-- The reference: its host operations run in order, none writing an argument. -/
theorem frame_ri : Cert.frame_ReferenceIdeal (hReferenceIdeal := Cert.ReferenceIdeal.Gen.facts) (hPre_input_domain := Cert.Pre_input_domain.Gen.facts) := fun m ρ _ =>
  (θ_run Cert.ReferenceIdeal.defs _ _).mono (fun _ h c => (h c).2) (Cert.ReferenceIdeal.Value.run (F := Ideal) m ρ)

/-- Both programs end with `Spec.gathered` of the arguments in their result. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m ρ m' ρ' hpre hagree
  refine ⟨fun c => Cert.Proof.KI.GVal m c, ?_, ?_⟩
  · exact (θ_run Cert.KernelIdeal.defs _ _).mono (fun _ h c => ⟨(h c).2.2, (h c).1, (h c).2.1⟩)
      (Cert.Proof.KI.run_main (F := Ideal) m ρ (fun d => Cert.PreRead.row_of_pre _ _ (hpre d)))
  · refine (θ_run Cert.ReferenceIdeal.defs _ _).mono (fun _ h c => ⟨(h c).1.trans ?_, (h c).2⟩)
      (Cert.ReferenceIdeal.Value.run (F := Ideal) m' ρ')
    obtain ⟨h0, _, h1⟩ := Cert.PreRead.entry_of_pre _ _ (hpre c)
    refine (Cert.ReferenceIdeal.Read.val_main_v5_eq (F := Ideal) _ _).trans ?_
    rw [(hagree c).1, (hagree c).2]
    exact Cert.RefValue.ref_eq _ _ h0 h1

theorem claim : Cert.Claim := ⟨Cert.Kernel.Gen.facts, Cert.KernelIdeal.Gen.facts, Cert.ReferenceIdeal.Gen.facts, Cert.Pre_input_domain.Gen.facts,
  frame_k, frame_ki, frame_ri, trivial, algebraic⟩

end Cert.Proof

end
